-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x64 .f32) (main_arg6 : FVec F S64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S100000x64 .f32) (main_arg3 : FVec F S128x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S1x64 : Shape := ⟨2, ![1, 64]⟩
abbrev S10000x64 : Shape := ⟨2, ![10000, 64]⟩

abbrev nBuf : Space → Nat
  | .hbm => 94
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x64, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S128x128, .bf16⟩
  | .hbm, ⟨46, _⟩ => ⟨S128x128, .f32⟩
  | .hbm, ⟨47, _⟩ => ⟨S128x128, .bf16⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .bf16⟩
  | .local _ .vmem, ⟨8, _⟩ => ⟨S10000x128, .f32⟩
  | .local _ .vmem, ⟨9, _⟩ => ⟨S10000x128, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  concatenates_S128x64_S128x64_S128x128_d1 : Shape.Concatenates [S128x64, S128x64] S128x128 1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  slices_S100000x128_S100000x64_0_0 : S100000x128.Slices ![0, 0] S100000x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S100000x128_S100000x64_0_64 : S100000x128.Slices ![0, 64] S100000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v71) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x64, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x64, .f32⟩
  | .hbm, ⟨95, _⟩ => ⟨S1700000x1, .f32⟩
  | .hbm, ⟨96, _⟩ => ⟨S1700000x64, .f32⟩
  | .hbm, ⟨97, _⟩ => ⟨S1700000x64, .f32⟩
  | .hbm, ⟨98, _⟩ => ⟨S_, .f32⟩
  | .hbm, ⟨99, _⟩ => ⟨S100000x64, .f32⟩
  | .hbm, ⟨100, _⟩ => ⟨S1700000x1, .i32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_11 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel program run to its end, with its RESULT array named.

  The program is three grid regions (a row-tiled matrix product, a second one, a pointwise chain) among three
  stretches of host operations.  The contents of every unscoped buffer at each boundary are a fold from the launch
  memory: a host stretch applies its operations, a region leaves each of its output arrays at what its ten
  write-backs assemble and every other buffer as it found it.  Every weakly fair execution terminates without a
  fault with every unscoped buffer at the end of that fold; read at the result buffer this names the result, and read
  at the nine argument buffers it walks back to the launch memory.
-/
import proofs.«108981_j56401510531402_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents `W6` read at it, and the nine argument arrays end as launched. -/
theorem run : θ_run defs (onTc (τ := τ) (main (F := F))) ⟨m, fun _ => 0, ρ⟩ (fun r => ∀ c : Dev nD,
      r.2.mem ((c.tc : Thread nD τ).loc main_v71) = W6 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v71 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.KRun

end
-- ==== Proof.KHost.lean ====
/-
  The three stretches of host operations of the idealized kernel program, read back over ANY contents of the buffers
  they start from.

  Stretch 0 builds, from the edge list, the source and destination words with the self-loops appended, the edge
  weights  d[src] · d[dst]  with  d = rsqrt(max(degree, 1)),  and the two weight matrices narrowed for the matrix
  unit (the second one the two output weight matrices side by side).  Stretch 1 aggregates the first product over
  the edges (rows gathered at the sources, scaled by the edge weights, added into the destination rows) and adds the
  first bias.  Stretch 2 aggregates the second product the same way, cuts the aggregate into its left and right 64
  columns and adds the two output biases.  Each result is stated as a term of the buffers the stretch reads; a buffer a
  stretch does not write keeps its contents.
-/
import proofs.«108981_j56401510531402_1_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo

variable {F : FTy → Type} [FloatOps F]

/-! ## The stages, as functions of what they read -/

/-- Row r of the 2 × E edge list with the N self-loop words 0 … N-1 appended. -/
def endsOf (r : Nat) (h : S2x1600000.Slices ![r, 0] S1x1600000) (x1 : IVec S2x1600000 32) : IVec S1700000 32 :=
  concatenate S1700000 0 [⟨S1600000, shapeCast S1600000 (extractStridedSlice S1x1600000 ![r, 0] x1 h) shapeCasts_S1x1600000_S1600000⟩,
    ⟨S100000, iotaInDim S100000 32 0⟩] concatenates_S1600000_S100000_S1700000_d0

/-- The sources (row 0) and the destinations (row 1). -/
def srcOf (x1 : IVec S2x1600000 32) : IVec S1700000 32 := endsOf 0 slices_S2x1600000_S1x1600000_0_0 x1
def dstOf (x1 : IVec S2x1600000 32) : IVec S1700000 32 := endsOf 1 slices_S2x1600000_S1x1600000_1_0 x1

/-- A vector of words as a one-column index array. -/
def col (v : IVec S1700000 32) : IVec S1700000x1 32 := broadcastInDim S1700000x1 ![0] bcast_S1700000_S1700000x1_0 v

/-- The same with the negative words moved up by N first (a negative index counts from the end). -/
def wrapCol (v : IVec S1700000 32) : IVec S1700000x1 32 :=
  col (select (cmpi .slt v (broadcastInDim S1700000 ![] bcast_S_S1700000 (constantI S_ 32 0#32)))
    (addi v (broadcastInDim S1700000 ![] bcast_S_S1700000 (constantI S_ 32 100000#32))) v)

/-- d = rsqrt(max(degree, 1)), the degree counted by adding a one into the destination row of every edge. -/
def dinvOf (dst : IVec S1700000 32) : FVec F S100000 .f32 :=
  Host.rsqrt (maximumf (Host.scatterAdd scatter_S100000_S1700000x1_S1700000_n_0_0_1
      (broadcastInDim S100000 ![] bcast_S_S100000 (constant (F := F) S_ .f32 0x00000000#32)) (col dst)
      (broadcastInDim S1700000 ![] bcast_S_S1700000 (constant (F := F) S_ .f32 0x3F800000#32)))
    (broadcastInDim S100000 ![] bcast_S_S100000 (constant (F := F) S_ .f32 0x3F800000#32)))

/-- The edge weights d[src] · d[dst]. -/
def normOf (src dst : IVec S1700000 32) : FVec F S1700000 .f32 :=
  mulf (Host.gather gather_S100000_S1700000x1_S1700000_n_0_n_n_0_1_1 (dinvOf (F := F) dst) (wrapCol src))
    (Host.gather gather_S100000_S1700000x1_S1700000_n_0_n_n_0_1_1 (dinvOf (F := F) dst) (wrapCol dst))

/-- The aggregation over the edges: rows of T gathered at the sources, scaled by the edge weights, added into the
    destination rows of a zero array. -/
def agg (dst src : IVec S1700000 32) (nrm : FVec F S1700000 .f32) (T : FVec F S100000x128 .f32) : FVec F S100000x128 .f32 :=
  Host.scatterAdd scatter_S100000x128_S1700000x1_S1700000x128_1_0_0_1
    (broadcastInDim S100000x128 ![] bcast_S_S100000x128 (constant (F := F) S_ .f32 0x00000000#32)) (col dst)
    (mulf (Host.gather gather_S100000x128_S1700000x1_S1700000x128_1_0_n_n_0_1_1128 T (wrapCol src))
      (broadcastInDim S1700000x128 ![0, 1] bcast_S1700000x1_S1700000x128_0_1 (broadcastInDim S1700000x1 ![0] bcast_S1700000_S1700000x1_0 nrm)))

/-- A bias vector repeated down the rows. -/
def rowBias128 (b : FVec F S128 .f32) : FVec F S100000x128 .f32 :=
  broadcastInDim S100000x128 ![0, 1] bcast_S1x128_S100000x128_0_1 (broadcastInDim S1x128 ![1] bcast_S128_S1x128_1 b)
def rowBias64 (b : FVec F S64 .f32) : FVec F S100000x64 .f32 :=
  broadcastInDim S100000x64 ![0, 1] bcast_S1x64_S100000x64_0_1 (broadcastInDim S1x64 ![1] bcast_S64_S1x64_1 b)

/-- The two output weight matrices side by side. -/
def wcat (x5 x7 : FVec F S128x64 .f32) : FVec F S128x128 .f32 :=
  concatenate S128x128 1 [⟨S128x64, x5⟩, ⟨S128x64, x7⟩] concatenates_S128x64_S128x64_S128x128_d1

/-! ## Stretch 0 -/

variable (Wv : Valuation τ sig (Elt F))

theorem h0_src : after hostOps0 Wv (Proc.devRef .tc main_v3) = srcOf (Wv (Proc.devRef .tc main_arg1)) := by
  dsimp only [hostOps0]; after_results; rfl

theorem h0_dst : after hostOps0 Wv (Proc.devRef .tc main_v6) = dstOf (Wv (Proc.devRef .tc main_arg1)) := by
  dsimp only [hostOps0]; after_results; rfl

set_option maxHeartbeats 4000000 in
theorem h0_nrm : after hostOps0 Wv (Proc.devRef .tc main_v28)
    = normOf (F := F) (srcOf (Wv (Proc.devRef .tc main_arg1))) (dstOf (Wv (Proc.devRef .tc main_arg1))) := by
  dsimp only [hostOps0]; after_results_simp; rfl

theorem h0_w1 : after hostOps0 Wv (Proc.devRef .tc main_v29)
    = truncf .bf16 (Wv (Proc.devRef .tc main_arg3) : FVec F S128x128 .f32) bitsLt_bf16_f32 := by
  dsimp only [hostOps0]; after_results

theorem h0_wcat : after hostOps0 Wv (Proc.devRef .tc main_v31)
    = truncf .bf16 (wcat (F := F) (Wv (Proc.devRef .tc main_arg5)) (Wv (Proc.devRef .tc main_arg7))) bitsLt_bf16_f32 := by
  dsimp only [hostOps0]; after_results_simp; rfl

theorem h0_arg0 : after hostOps0 Wv (Proc.devRef .tc main_arg0) = Wv (Proc.devRef .tc main_arg0) := by
  dsimp only [hostOps0]; after_results
theorem h0_arg2 : after hostOps0 Wv (Proc.devRef .tc main_arg2) = Wv (Proc.devRef .tc main_arg2) := by
  dsimp only [hostOps0]; after_results_simp
theorem h0_arg4 : after hostOps0 Wv (Proc.devRef .tc main_arg4) = Wv (Proc.devRef .tc main_arg4) := by
  dsimp only [hostOps0]; after_results_simp
theorem h0_arg6 : after hostOps0 Wv (Proc.devRef .tc main_arg6) = Wv (Proc.devRef .tc main_arg6) := by
  dsimp only [hostOps0]; after_results_simp
theorem h0_arg8 : after hostOps0 Wv (Proc.devRef .tc main_arg8) = Wv (Proc.devRef .tc main_arg8) := by
  dsimp only [hostOps0]; after_results_simp

/-! ## Stretch 1 -/

set_option maxHeartbeats 4000000 in
theorem h1_hid : after hostOps1 Wv (Proc.devRef .tc main_v48)
    = addf (agg (F := F) (Wv (Proc.devRef .tc main_v6)) (Wv (Proc.devRef .tc main_v3)) (Wv (Proc.devRef .tc main_v28))
        (Wv (Proc.devRef .tc main_v32))) (rowBias128 (F := F) (Wv (Proc.devRef .tc main_arg4))) := by
  dsimp only [hostOps1]; after_results_simp; rfl

theorem h1_src : after hostOps1 Wv (Proc.devRef .tc main_v3) = Wv (Proc.devRef .tc main_v3) := by
  dsimp only [hostOps1]; after_results_simp
theorem h1_dst : after hostOps1 Wv (Proc.devRef .tc main_v6) = Wv (Proc.devRef .tc main_v6) := by
  dsimp only [hostOps1]; after_results_simp
theorem h1_nrm : after hostOps1 Wv (Proc.devRef .tc main_v28) = Wv (Proc.devRef .tc main_v28) := by
  dsimp only [hostOps1]; after_results_simp
theorem h1_wcat : after hostOps1 Wv (Proc.devRef .tc main_v31) = Wv (Proc.devRef .tc main_v31) := by
  dsimp only [hostOps1]; after_results_simp
theorem h1_arg2 : after hostOps1 Wv (Proc.devRef .tc main_arg2) = Wv (Proc.devRef .tc main_arg2) := by
  dsimp only [hostOps1]; after_results_simp
theorem h1_arg6 : after hostOps1 Wv (Proc.devRef .tc main_arg6) = Wv (Proc.devRef .tc main_arg6) := by
  dsimp only [hostOps1]; after_results_simp
theorem h1_arg8 : after hostOps1 Wv (Proc.devRef .tc main_arg8) = Wv (Proc.devRef .tc main_arg8) := by
  dsimp only [hostOps1]; after_results_simp

/-! ## Stretch 2 -/

set_option maxHeartbeats 4000000 in
theorem h2_mu : after hostOps2 Wv (Proc.devRef .tc main_v66)
    = addf (extractStridedSlice S100000x64 ![0, 0] (agg (F := F) (Wv (Proc.devRef .tc main_v6)) (Wv (Proc.devRef .tc main_v3))
        (Wv (Proc.devRef .tc main_v28)) (Wv (Proc.devRef .tc main_v49))) slices_S100000x128_S100000x64_0_0)
      (rowBias64 (F := F) (Wv (Proc.devRef .tc main_arg6))) := by
  dsimp only [hostOps2]; after_results_simp; rfl

set_option maxHeartbeats 4000000 in
theorem h2_ls : after hostOps2 Wv (Proc.devRef .tc main_v70)
    = addf (extractStridedSlice S100000x64 ![0, 64] (agg (F := F) (Wv (Proc.devRef .tc main_v6)) (Wv (Proc.devRef .tc main_v3))
        (Wv (Proc.devRef .tc main_v28)) (Wv (Proc.devRef .tc main_v49))) slices_S100000x128_S100000x64_0_64)
      (rowBias64 (F := F) (Wv (Proc.devRef .tc main_arg8))) := by
  dsimp only [hostOps2]; after_results_simp; rfl

theorem h2_arg2 : after hostOps2 Wv (Proc.devRef .tc main_arg2) = Wv (Proc.devRef .tc main_arg2) := by
  dsimp only [hostOps2]; after_results_simp

end Cert.KernelIdeal.KHost

end
-- ==== Proof.KMat.lean ====
/-
  Two whole-array functions at the heart of the kernel program: the plain product of a 100000 × 128 array with a
  128 × 128 matrix (what each of its two matrix-product regions leaves in its output array at the ideal values), and
  the pointwise chain  mu + x · exp(ls)  of its last region.
-/
import proofs.«108981_j56401510531402_1_alg».proof.KernelIdeal
import Idealize.ShloMosaic.Lib.ValueIdx
import Idealize.ShloMosaic.PureOps.Ideal

noncomputable section

namespace Cert.KernelIdeal.KMat

open Cert.KernelIdeal Idealize.ShloMosaic Idealize.ShloMosaic.ValueIdx
open scoped BigOperators

/-- Entry (r, q) of the product is the sum over k of x (r, k) · w (k, q). -/
def rowsTimes (x : FVec Ideal S100000x128 .f32) (w : FVec Ideal S128x128 .bf16) : FVec Ideal S100000x128 .f32 :=
  fun i => ∑ k : Fin 128, x (ix2 (i 0) k) * w (ix2 k (i 1))

/-- The pointwise chain on whole arrays:  mu + x · exp(ls),  entry by entry. -/
def reparam {F : FTy → Type} [FloatOps F] (mu ls x : S100000x64.Idx → Elt F .f32) : S100000x64.Idx → Elt F .f32 :=
  fun i => FloatOps.addf (mu i) (FloatOps.mulf (x i) (FloatOps.exp (ls i)))

end Cert.KernelIdeal.KMat

end
-- ==== Proof.KSpec.lean ====
/-
  The kernel program's result as ONE function of its nine argument arrays, at the ideal values.

  hidden = aggregate(x · W1) + b1;  A = aggregate(hidden · [Wmu | Wls]);  mu = A[:, :64] + bmu;  ls = A[:, 64:] + bls;
  result = mu + init · exp(ls),  where the aggregation is over the edge list with the self-loops appended and the
  edge weights  d[src] · d[dst].
-/
import proofs.«108981_j56401510531402_1_alg».proof.Proof.KHost
import proofs.«108981_j56401510531402_1_alg».proof.Proof.KMat

noncomputable section

namespace Cert.KernelIdeal.KSpec

open Cert.KernelIdeal Cert.KernelIdeal.Gen Cert.KernelIdeal.KHost Cert.KernelIdeal.KMat Idealize.ShloMosaic

/-- The aggregation of this edge list, with its own edge weights. -/
def aggOf (x1 : IVec S2x1600000 32) (T : FVec Ideal S100000x128 .f32) : FVec Ideal S100000x128 .f32 :=
  agg (F := Ideal) (dstOf x1) (srcOf x1) (normOf (F := Ideal) (srcOf x1) (dstOf x1)) T

/-- The hidden layer: the aggregate of x · W1, plus the first bias. -/
def kHid (x0 : FVec Ideal S100000x128 .f32) (x1 : IVec S2x1600000 32) (x3 : FVec Ideal S128x128 .f32) (x4 : FVec Ideal S128 .f32) :
    FVec Ideal S100000x128 .f32 :=
  addf (aggOf x1 (rowsTimes x0 (truncf .bf16 x3 bitsLt_bf16_f32))) (rowBias128 (F := Ideal) x4)

/-- The aggregate of hidden · [Wmu | Wls], 128 columns wide. -/
def kAgg2 (x0 : FVec Ideal S100000x128 .f32) (x1 : IVec S2x1600000 32) (x3 : FVec Ideal S128x128 .f32) (x4 : FVec Ideal S128 .f32)
    (x5 x7 : FVec Ideal S128x64 .f32) : FVec Ideal S100000x128 .f32 :=
  aggOf x1 (rowsTimes (kHid x0 x1 x3 x4) (truncf .bf16 (wcat (F := Ideal) x5 x7) bitsLt_bf16_f32))

/-- Its left 64 columns plus the first output bias, and its right 64 columns plus the second. -/
def kMu (x0 : FVec Ideal S100000x128 .f32) (x1 : IVec S2x1600000 32) (x3 : FVec Ideal S128x128 .f32) (x4 : FVec Ideal S128 .f32)
    (x5 : FVec Ideal S128x64 .f32) (x6 : FVec Ideal S64 .f32) (x7 : FVec Ideal S128x64 .f32) : FVec Ideal S100000x64 .f32 :=
  addf (extractStridedSlice S100000x64 ![0, 0] (kAgg2 x0 x1 x3 x4 x5 x7) slices_S100000x128_S100000x64_0_0) (rowBias64 (F := Ideal) x6)
def kLs (x0 : FVec Ideal S100000x128 .f32) (x1 : IVec S2x1600000 32) (x3 : FVec Ideal S128x128 .f32) (x4 : FVec Ideal S128 .f32)
    (x5 x7 : FVec Ideal S128x64 .f32) (x8 : FVec Ideal S64 .f32) : FVec Ideal S100000x64 .f32 :=
  addf (extractStridedSlice S100000x64 ![0, 64] (kAgg2 x0 x1 x3 x4 x5 x7) slices_S100000x128_S100000x64_0_64) (rowBias64 (F := Ideal) x8)

/-- The result. -/
def kOut (x0 : FVec Ideal S100000x128 .f32) (x1 : IVec S2x1600000 32) (x2 : FVec Ideal S100000x64 .f32) (x3 : FVec Ideal S128x128 .f32)
    (x4 : FVec Ideal S128 .f32) (x5 : FVec Ideal S128x64 .f32) (x6 : FVec Ideal S64 .f32) (x7 : FVec Ideal S128x64 .f32)
    (x8 : FVec Ideal S64 .f32) : FVec Ideal S100000x64 .f32 :=
  reparam (F := Ideal) (kMu x0 x1 x3 x4 x5 x6 x7) (kLs x0 x1 x3 x4 x5 x7 x8) x2

end Cert.KernelIdeal.KSpec

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.KReg0.lean ====
/-
  Grid region 0: a 100000 × 128 array times a 128 × 128 matrix on the matrix unit, ten row blocks of 10000 rows.

  Point t of the grid reads rows [10000 t, 10000 t + 10000) of the left array and the whole right matrix, multiplies
  them into a zero accumulator and writes the same rows of the output array.  At the ideal values entry (p, q) of a
  block's product is the sum over k of left (p, k) · right (k, q): a row of the product depends on that row of the
  left array alone, so what point t writes back is block t of the product of the WHOLE arrays, and the ten blocks tile
  the 100000 rows: after the region the output array holds that product.
-/
import proofs.«108981_j56401510531402_1_alg».proof.Proof.Gen.KernelIdeal.Frame
import Idealize.ShloMosaic.Lib.Pipeline.Value
import Idealize.ShloMosaic.Lib.ValueIdx
import proofs.«108981_j56401510531402_1_alg».proof.Proof.LibPlainMatmul
import proofs.«108981_j56401510531402_1_alg».proof.Proof.KMat
set_option maxRecDepth 16384

noncomputable section

namespace Cert.KernelIdeal.KReg0

open Cert.KernelIdeal Cert.KernelIdeal.Gen
open Idealize.ShloMosaic Idealize.ShloMosaic.TcCoe Idealize.SL.Sem
open Idealize.ShloMosaic.Pipeline (Dat Cfg Window)

open Idealize.ShloMosaic.ValueIdx Cert.KernelIdeal.KMat
open scoped BigOperators

variable (V : (c : Dev nD) → (b : Ref sig .tc) → Buf (Elt Ideal) ((c : Thread nD τ).loc b))

theorem origin2 : (![0, 0] : Fin 2 → Nat) = fun _ => 0 := funext fun a => by fin_cases a <;> rfl

/-- The body's stored value at (p, q): the row p of its left block against the column q of the right matrix
    (narrowing the left block to the matrix unit's format changes nothing at the ideal values). -/
theorem pay_at (x0 : Vec Ideal S10000x128 .f32) (x1 : Vec Ideal S128x128 .bf16) (p : Fin 10000) (q : Fin 128) :
    k0_pay1 x0 x1 (ix2 p q) = ∑ k : Fin 128, x0 (ix2 p k) * x1 (ix2 k q) := by
  unfold k0_pay1
  simp only [shapeCast_self]
  exact PlainMatmul.matmul_zero_apply dot_S10000x128_S128x128_S10000x128_1_0_0_1_n_n rfl rfl rfl rfl rfl rfl none
    (truncf .bf16 x0 bitsLt_bf16_f32) x1 p q

/-- The three index maps over the grid: the left and the output windows are at block row t, the right at block 0. -/
theorem idx_rows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's left block against column q of the right matrix is entry (10000 t + p, q) of the whole
    product: the left block's rows are rows 10000 t … of the left array, the right window is the whole matrix. -/
theorem block_sum (X : FVec Ideal S100000x128 .f32) (W : FVec Ideal S128x128 .bf16) (t : Fin cfg0.N) (p : Fin 10000) (q : Fin 128) :
    ∑ k : Fin 128, X (((cfg0.win 0).blk t).view.emb (ix2 p k)) * W (((cfg0.win 1).blk t).view.emb (ix2 k q))
      = rowsTimes X W (((cfg0.win 2).blk t).view.emb (ix2 p q)) := by
  obtain ⟨e0, e1, e2, e3, e4, e5⟩ := idx_rows t
  unfold rowsTimes
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]
  rfl

/-- What point t writes back is block t of the product of the two arrays as the region finds them. -/
theorem flushed_eq (c : Dev nD) (t : Fin cfg0.N) :
    (dat0 V c).flushed 2 t
      = ((cfg0.win 2).blk t).view.read (Elt Ideal) (rowsTimes (V c main_arg0) (V c main_v29)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x128) origin2]
  funext j
  obtain ⟨p, q, rfl⟩ : ∃ (p : Fin 10000) (q : Fin 128), j = ix2 p q := ⟨j 0, j 1, eq_ix2 j⟩
  refine (pay_at (iblk0 V c 0 t) (iblk0 V c 1 t) p q).trans ?_
  exact block_sum (V c main_arg0) (V c main_v29) t p q

/-- An index of the output array is in point t's block iff each coordinate is in the block's range. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- The ten row blocks tile the array: row r is in the block of point r / 10000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := Gen.N_0
  refine ⟨⟨(i 0).val / 10000, by omega⟩, flush0_2 _, ?_⟩
  rw [mem_blk]
  obtain ⟨-, -, -, -, e4, e5⟩ := idx_rows ⟨(i 0).val / 10000, by omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ _ ∧ _ < (i 0).val / 10000 * 10000 + 10000; omega
  | ⟨1, _⟩ => show win0_2.index _ (1 : Fin 2) * 128 ≤ (i 1).val ∧ (i 1).val < win0_2.index _ (1 : Fin 2) * 128 + 128; rw [e5]; omega

/-- After the region the output array holds the product of the two input arrays as the region found them. -/
theorem final (c : Dev nD) :
    (dat0 V c).arrAt 2 cfg0.N = rowsTimes (V c main_arg0) (V c main_v29) :=
  (dat0 V c).arrAt_eq_of_cover 2 _ (fun t _ => flushed_eq V c t) cover

end Cert.KernelIdeal.KReg0

end
-- ==== Proof.KReg1.lean ====
/-
  Grid region 1: a 100000 × 128 array times a 128 × 128 matrix on the matrix unit, ten row blocks of 10000 rows.

  Point t of the grid reads rows [10000 t, 10000 t + 10000) of the left array and the whole right matrix, multiplies
  them into a zero accumulator and writes the same rows of the output array.  At the ideal values entry (p, q) of a
  block's product is the sum over k of left (p, k) · right (k, q): a row of the product depends on that row of the
  left array alone, so what point t writes back is block t of the product of the WHOLE arrays, and the ten blocks tile
  the 100000 rows: after the region the output array holds that product.
-/
import proofs.«108981_j56401510531402_1_alg».proof.Proof.Gen.KernelIdeal.Frame
import Idealize.ShloMosaic.Lib.Pipeline.Value
import Idealize.ShloMosaic.Lib.ValueIdx
import proofs.«108981_j56401510531402_1_alg».proof.Proof.LibPlainMatmul
import proofs.«108981_j56401510531402_1_alg».proof.Proof.KMat
set_option maxRecDepth 16384

noncomputable section

namespace Cert.KernelIdeal.KReg1

open Cert.KernelIdeal Cert.KernelIdeal.Gen
open Idealize.ShloMosaic Idealize.ShloMosaic.TcCoe Idealize.SL.Sem
open Idealize.ShloMosaic.Pipeline (Dat Cfg Window)

open Idealize.ShloMosaic.ValueIdx Cert.KernelIdeal.KMat
open scoped BigOperators

variable (V : (c : Dev nD) → (b : Ref sig .tc) → Buf (Elt Ideal) ((c : Thread nD τ).loc b))

theorem origin2 : (![0, 0] : Fin 2 → Nat) = fun _ => 0 := funext fun a => by fin_cases a <;> rfl

/-- The body's stored value at (p, q): the row p of its left block against the column q of the right matrix
    (narrowing the left block to the matrix unit's format changes nothing at the ideal values). -/
theorem pay_at (x0 : Vec Ideal S10000x128 .f32) (x1 : Vec Ideal S128x128 .bf16) (p : Fin 10000) (q : Fin 128) :
    k1_pay1 x0 x1 (ix2 p q) = ∑ k : Fin 128, x0 (ix2 p k) * x1 (ix2 k q) := by
  unfold k1_pay1
  simp only [shapeCast_self]
  exact PlainMatmul.matmul_zero_apply dot_S10000x128_S128x128_S10000x128_1_0_0_1_n_n rfl rfl rfl rfl rfl rfl none
    (truncf .bf16 x0 bitsLt_bf16_f32) x1 p q

/-- The three index maps over the grid: the left and the output windows are at block row t, the right at block 0. -/
theorem idx_rows : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's left block against column q of the right matrix is entry (10000 t + p, q) of the whole
    product: the left block's rows are rows 10000 t … of the left array, the right window is the whole matrix. -/
theorem block_sum (X : FVec Ideal S100000x128 .f32) (W : FVec Ideal S128x128 .bf16) (t : Fin cfg1.N) (p : Fin 10000) (q : Fin 128) :
    ∑ k : Fin 128, X (((cfg1.win 0).blk t).view.emb (ix2 p k)) * W (((cfg1.win 1).blk t).view.emb (ix2 k q))
      = rowsTimes X W (((cfg1.win 2).blk t).view.emb (ix2 p q)) := by
  obtain ⟨e0, e1, e2, e3, e4, e5⟩ := idx_rows t
  unfold rowsTimes
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega
  rw [h0, h1]
  rfl

/-- What point t writes back is block t of the product of the two arrays as the region finds them. -/
theorem flushed_eq (c : Dev nD) (t : Fin cfg1.N) :
    (dat1 V c).flushed 2 t
      = ((cfg1.win 2).blk t).view.read (Elt Ideal) (rowsTimes (V c main_v48) (V c main_v31)) := by
  show (cfg1.win 2).cut (grid1.coords t) ((dat1 V c).after 2 t) = _
  rw [after1_2]
  unfold out1_2
  rw [View.canon_unit_zero origin2]
  simp only [View.ld_unit_zero (S := S10000x128) origin2, View.ld_unit_zero (S := S128x128) origin2]
  funext j
  obtain ⟨p, q, rfl⟩ : ∃ (p : Fin 10000) (q : Fin 128), j = ix2 p q := ⟨j 0, j 1, eq_ix2 j⟩
  refine (pay_at (iblk1 V c 0 t) (iblk1 V c 1 t) p q).trans ?_
  exact block_sum (V c main_v48) (V c main_v31) t p q

/-- An index of the output array is in point t's block iff each coordinate is in the block's range. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v49).slice (win1_2.rect t)).set ↔ _
  rw [View.set_slice_whole, Rect.mem_set_unit]
  exact Iff.rfl

/-- The ten row blocks tile the array: row r is in the block of point r / 10000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := Gen.N_1
  refine ⟨⟨(i 0).val / 10000, by omega⟩, flush1_2 _, ?_⟩
  rw [mem_blk]
  obtain ⟨-, -, -, -, e4, e5⟩ := idx_rows ⟨(i 0).val / 10000, by omega⟩
  intro a
  match a with
  | ⟨0, _⟩ => show win1_2.index _ (0 : Fin 2) * 10000 ≤ (i 0).val ∧ (i 0).val < win1_2.index _ (0 : Fin 2) * 10000 + 10000; rw [e4]; show (i 0).val / 10000 * 10000 ≤ _ ∧ _ < (i 0).val / 10000 * 10000 + 10000; omega
  | ⟨1, _⟩ => show win1_2.index _ (1 : Fin 2) * 128 ≤ (i 1).val ∧ (i 1).val < win1_2.index _ (1 : Fin 2) * 128 + 128; rw [e5]; omega

/-- After the region the output array holds the product of the two input arrays as the region found them. -/
theorem final (c : Dev nD) :
    (dat1 V c).arrAt 2 cfg1.N = rowsTimes (V c main_v48) (V c main_v31) :=
  (dat1 V c).arrAt_eq_of_cover 2 _ (fun t _ => flushed_eq V c t) cover

end Cert.KernelIdeal.KReg1

end
-- ==== Proof.KReg2.lean ====
/-
  The third grid region: the pointwise chain  mu + x · exp(ls)  over ten row blocks of 10000 rows.

  Point t of the grid reads rows [10000 t, 10000 t + 10000) of the three input arrays and writes the same rows of
  the output array; the body is pointwise, so what point t writes back is block t of ONE function of the three whole
  arrays, and the ten blocks tile the 100000 rows: after the region the output array holds that function.
-/
import proofs.«108981_j56401510531402_1_alg».proof.Proof.Gen.KernelIdeal.Frame
import Idealize.ShloMosaic.Lib.Pipeline.Value
import Idealize.ShloMosaic.Lib.ValueIdx
import proofs.«108981_j56401510531402_1_alg».proof.Proof.KMat

set_option maxRecDepth 16384

noncomputable section

namespace Cert.KernelIdeal.KReg2

open Cert.KernelIdeal Cert.KernelIdeal.Gen
open Idealize.ShloMosaic Idealize.ShloMosaic.TcCoe Idealize.SL.Sem
open Idealize.ShloMosaic.Pipeline (Dat Cfg Window)
open Cert.KernelIdeal.KMat

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- The body's stored value is the chain of its three loaded blocks (the two casts are to the same shape). -/
theorem pay_eq (x0 x1 x2 : Vec F S10000x64 .f32) :
    k2_pay1 x0 x1 x2 = fun j => FloatOps.addf (x0 j) (FloatOps.mulf (x2 j) (FloatOps.exp (x1 j))) := by
  unfold k2_pay1
  simp only [shapeCast_self]
  rfl

/-- The four index maps over the grid: at point t every window is at block row t, block column 0. -/
theorem idx_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is block t of the chain of the three arrays as the region finds them. -/
theorem flushed_eq (c : Dev nD) (t : Fin cfg2.N) :
    (dat2 V c).flushed 3 t
      = ((cfg2.win 3).blk t).view.read (Elt F) (reparam (V c main_v66) (V c main_v70) (V c main_arg2)) := by
  show (cfg2.win 3).cut (grid2.coords t) ((dat2 V c).after 3 t) = _
  rw [after2_3]
  unfold out2_3
  rw [View.canon_unit_zero origin2]
  simp only [View.ld_unit_zero (S := S10000x64) origin2]
  rw [pay_eq]
  obtain ⟨e0, e1, e2, e3, e4, e5, e6, e7⟩ := idx_rows t
  funext j
  show FloatOps.addf (V c main_v66 (((cfg2.win 0).blk t).view.emb j))
      (FloatOps.mulf (V c main_arg2 (((cfg2.win 2).blk t).view.emb j)) (FloatOps.exp (V c main_v70 (((cfg2.win 1).blk t).view.emb j))))
    = FloatOps.addf (V c main_v66 (((cfg2.win 3).blk t).view.emb j))
      (FloatOps.mulf (V c main_arg2 (((cfg2.win 3).blk t).view.emb j)) (FloatOps.exp (V c main_v70 (((cfg2.win 3).blk t).view.emb j))))
  have h0 : ((cfg2.win 0).blk t).view.emb j = ((cfg2.win 3).blk t).view.emb j := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb j = ((cfg2.win 3).blk t).view.emb j := by
    funext a; apply Fin.ext
    match a with
    | ⟨0, _⟩ => show win2_1.index t (0 : Fin 2) * 10000 + 1 * (j 0).val = win2_3.index t (0 : Fin 2) * 10000 + 1 * (j 0).val; omega
    | ⟨1, _⟩ => show win2_1.index t (1 : Fin 2) * 64 + 1 * (j 1).val = win2_3.index t (1 : Fin 2) * 64 + 1 * (j 1).val; omega
  have h2 : ((cfg2.win 2).blk t).view.emb j = ((cfg2.win 3).blk t).view.emb j := by
    funext a; apply Fin.ext
    match a with
    | ⟨0, _⟩ => show win2_2.index t (0 : Fin 2) * 10000 + 1 * (j 0).val = win2_3.index t (0 : Fin 2) * 10000 + 1 * (j 0).val; omega
    | ⟨1, _⟩ => show win2_2.index t (1 : Fin 2) * 64 + 1 * (j 1).val = win2_3.index t (1 : Fin 2) * 64 + 1 * (j 1).val; omega
  rw [h0, h1, h2]

/-- An index of the output array is in point t's block iff each coordinate is in the block's range. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v71).slice (win2_3.rect t)).set ↔ _
  rw [View.set_slice_whole, Rect.mem_set_unit]
  exact Iff.rfl

/-- The ten row blocks tile the array: row r is in the block of point r / 10000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := Gen.N_2
  refine ⟨⟨(i 0).val / 10000, by omega⟩, flush2_3 _, ?_⟩
  rw [mem_blk]
  obtain ⟨-, -, -, -, -, -, e6, e7⟩ := idx_rows ⟨(i 0).val / 10000, by omega⟩
  intro a
  match a with
  | ⟨0, _⟩ => show win2_3.index _ (0 : Fin 2) * 10000 ≤ (i 0).val ∧ (i 0).val < win2_3.index _ (0 : Fin 2) * 10000 + 10000; rw [e6]; show (i 0).val / 10000 * 10000 ≤ _ ∧ _ < (i 0).val / 10000 * 10000 + 10000; omega
  | ⟨1, _⟩ => show win2_3.index _ (1 : Fin 2) * 64 ≤ (i 1).val ∧ (i 1).val < win2_3.index _ (1 : Fin 2) * 64 + 64; rw [e7]; omega

/-- After the region the output array holds the chain of the three input arrays as the region found them. -/
theorem final (c : Dev nD) :
    (dat2 V c).arrAt 3 cfg2.N = reparam (V c main_v66) (V c main_v70) (V c main_arg2) :=
  (dat2 V c).arrAt_eq_of_cover 3 _ (fun t _ => flushed_eq V c t) cover

end Cert.KernelIdeal.KReg2

end
-- ==== Proof.KFold.lean ====
/-
  The kernel program's fold of buffer contents, walked from the launch memory to the result buffer.

  Stretch 0 computes the edge data and the narrowed weights from the arguments; region 0 leaves x · W1; stretch 1
  leaves the hidden layer; region 1 leaves hidden · [Wmu | Wls]; stretch 2 leaves mu and ls; region 2 leaves the result.
  A buffer that a stretch does not write and that is not one of a region's arrays passes through unchanged.  Read at
  the result buffer, the end of the fold is the one function `kOut` of the nine argument arrays.
-/
import proofs.«108981_j56401510531402_1_alg».proof.Proof.Gen.KernelIdeal.Frame
import proofs.«108981_j56401510531402_1_alg».proof.Proof.KHost
import proofs.«108981_j56401510531402_1_alg».proof.Proof.KSpec
import proofs.«108981_j56401510531402_1_alg».proof.Proof.KReg0
import proofs.«108981_j56401510531402_1_alg».proof.Proof.KReg1
import proofs.«108981_j56401510531402_1_alg».proof.Proof.KReg2

set_option maxRecDepth 16384

noncomputable section

namespace Cert.KernelIdeal.KFold

open Cert.KernelIdeal Cert.KernelIdeal.Gen Cert.KernelIdeal.KHost Cert.KernelIdeal.KMat Cert.KernelIdeal.KSpec
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After stretch 0 -/

theorem w1_src : W1 m ρ c (Proc.devRef .tc main_v3) = (srcOf (m ((c : Thread nD τ).loc main_arg1))) := h0_src (W0 m ρ c)
theorem w1_dst : W1 m ρ c (Proc.devRef .tc main_v6) = (dstOf (m ((c : Thread nD τ).loc main_arg1))) := h0_dst (W0 m ρ c)
theorem w1_nrm : W1 m ρ c (Proc.devRef .tc main_v28) = (normOf (F := Ideal) (srcOf (m ((c : Thread nD τ).loc main_arg1))) (dstOf (m ((c : Thread nD τ).loc main_arg1)))) := h0_nrm (W0 m ρ c)
theorem w1_w1 : W1 m ρ c (Proc.devRef .tc main_v29) = truncf (F := Ideal) (s := S128x128) (φ := .f32) .bf16 (m ((c : Thread nD τ).loc main_arg3)) bitsLt_bf16_f32 := h0_w1 (W0 m ρ c)
theorem w1_wcat : W1 m ρ c (Proc.devRef .tc main_v31) = (truncf .bf16 (wcat (F := Ideal) (m ((c : Thread nD τ).loc main_arg5)) (m ((c : Thread nD τ).loc main_arg7))) bitsLt_bf16_f32) := h0_wcat (W0 m ρ c)
theorem w1_arg0 : W1 m ρ c (Proc.devRef .tc main_arg0) = (m ((c : Thread nD τ).loc main_arg0)) := h0_arg0 (W0 m ρ c)
theorem w1_arg2 : W1 m ρ c (Proc.devRef .tc main_arg2) = (m ((c : Thread nD τ).loc main_arg2)) := h0_arg2 (W0 m ρ c)
theorem w1_arg4 : W1 m ρ c (Proc.devRef .tc main_arg4) = (m ((c : Thread nD τ).loc main_arg4)) := h0_arg4 (W0 m ρ c)
theorem w1_arg6 : W1 m ρ c (Proc.devRef .tc main_arg6) = (m ((c : Thread nD τ).loc main_arg6)) := h0_arg6 (W0 m ρ c)
theorem w1_arg8 : W1 m ρ c (Proc.devRef .tc main_arg8) = (m ((c : Thread nD τ).loc main_arg8)) := h0_arg8 (W0 m ρ c)

/-! ## After region 0 -/

theorem w2_src : W2 m ρ c (Proc.devRef .tc main_v3) = (srcOf (m ((c : Thread nD τ).loc main_arg1))) := (W2_of_ne m ρ c main_v3 (by decide)).trans (w1_src m ρ c)
theorem w2_dst : W2 m ρ c (Proc.devRef .tc main_v6) = (dstOf (m ((c : Thread nD τ).loc main_arg1))) := (W2_of_ne m ρ c main_v6 (by decide)).trans (w1_dst m ρ c)
theorem w2_nrm : W2 m ρ c (Proc.devRef .tc main_v28) = (normOf (F := Ideal) (srcOf (m ((c : Thread nD τ).loc main_arg1))) (dstOf (m ((c : Thread nD τ).loc main_arg1)))) := (W2_of_ne m ρ c main_v28 (by decide)).trans (w1_nrm m ρ c)
theorem w2_wcat : W2 m ρ c (Proc.devRef .tc main_v31) = (truncf .bf16 (wcat (F := Ideal) (m ((c : Thread nD τ).loc main_arg5)) (m ((c : Thread nD τ).loc main_arg7))) bitsLt_bf16_f32) := (W2_of_ne m ρ c main_v31 (by decide)).trans (w1_wcat m ρ c)
theorem w2_arg2 : W2 m ρ c (Proc.devRef .tc main_arg2) = (m ((c : Thread nD τ).loc main_arg2)) := (W2_of_ne m ρ c main_arg2 (by decide)).trans (w1_arg2 m ρ c)
theorem w2_arg4 : W2 m ρ c (Proc.devRef .tc main_arg4) = (m ((c : Thread nD τ).loc main_arg4)) := (W2_of_ne m ρ c main_arg4 (by decide)).trans (w1_arg4 m ρ c)
theorem w2_arg6 : W2 m ρ c (Proc.devRef .tc main_arg6) = (m ((c : Thread nD τ).loc main_arg6)) := (W2_of_ne m ρ c main_arg6 (by decide)).trans (w1_arg6 m ρ c)
theorem w2_arg8 : W2 m ρ c (Proc.devRef .tc main_arg8) = (m ((c : Thread nD τ).loc main_arg8)) := (W2_of_ne m ρ c main_arg8 (by decide)).trans (w1_arg8 m ρ c)

/-- Region 0's output array: the product of x with the first weight matrix. -/
theorem w2_hpre : W2 m ρ c (Proc.devRef .tc main_v32) = (rowsTimes (m ((c : Thread nD τ).loc main_arg0)) (truncf .bf16 (m ((c : Thread nD τ).loc main_arg3)) bitsLt_bf16_f32)) := by
  refine (W2_arr m ρ c 2).trans ((KReg0.final (V1 m ρ) c).trans ?_)
  show rowsTimes (W1 m ρ c (Proc.devRef .tc main_arg0)) (W1 m ρ c (Proc.devRef .tc main_v29)) = _
  rw [w1_arg0 m ρ c, w1_w1 m ρ c]

/-! ## After stretch 1 -/

/-- The hidden layer. -/
theorem w3_hid : W3 m ρ c (Proc.devRef .tc main_v48) = (kHid (m ((c : Thread nD τ).loc main_arg0)) (m ((c : Thread nD τ).loc main_arg1)) (m ((c : Thread nD τ).loc main_arg3)) (m ((c : Thread nD τ).loc main_arg4))) := by
  refine (h1_hid (W2 m ρ c)).trans ?_
  rw [w2_dst m ρ c, w2_src m ρ c, w2_nrm m ρ c, w2_hpre m ρ c, w2_arg4 m ρ c]
  rfl
theorem w3_src : W3 m ρ c (Proc.devRef .tc main_v3) = (srcOf (m ((c : Thread nD τ).loc main_arg1))) := (h1_src (W2 m ρ c)).trans (w2_src m ρ c)
theorem w3_dst : W3 m ρ c (Proc.devRef .tc main_v6) = (dstOf (m ((c : Thread nD τ).loc main_arg1))) := (h1_dst (W2 m ρ c)).trans (w2_dst m ρ c)
theorem w3_nrm : W3 m ρ c (Proc.devRef .tc main_v28) = (normOf (F := Ideal) (srcOf (m ((c : Thread nD τ).loc main_arg1))) (dstOf (m ((c : Thread nD τ).loc main_arg1)))) := (h1_nrm (W2 m ρ c)).trans (w2_nrm m ρ c)
theorem w3_wcat : W3 m ρ c (Proc.devRef .tc main_v31) = (truncf .bf16 (wcat (F := Ideal) (m ((c : Thread nD τ).loc main_arg5)) (m ((c : Thread nD τ).loc main_arg7))) bitsLt_bf16_f32) := (h1_wcat (W2 m ρ c)).trans (w2_wcat m ρ c)
theorem w3_arg2 : W3 m ρ c (Proc.devRef .tc main_arg2) = (m ((c : Thread nD τ).loc main_arg2)) := (h1_arg2 (W2 m ρ c)).trans (w2_arg2 m ρ c)
theorem w3_arg6 : W3 m ρ c (Proc.devRef .tc main_arg6) = (m ((c : Thread nD τ).loc main_arg6)) := (h1_arg6 (W2 m ρ c)).trans (w2_arg6 m ρ c)
theorem w3_arg8 : W3 m ρ c (Proc.devRef .tc main_arg8) = (m ((c : Thread nD τ).loc main_arg8)) := (h1_arg8 (W2 m ρ c)).trans (w2_arg8 m ρ c)

/-! ## After region 1 -/

theorem w4_src : W4 m ρ c (Proc.devRef .tc main_v3) = (srcOf (m ((c : Thread nD τ).loc main_arg1))) := (W4_of_ne m ρ c main_v3 (by decide)).trans (w3_src m ρ c)
theorem w4_dst : W4 m ρ c (Proc.devRef .tc main_v6) = (dstOf (m ((c : Thread nD τ).loc main_arg1))) := (W4_of_ne m ρ c main_v6 (by decide)).trans (w3_dst m ρ c)
theorem w4_nrm : W4 m ρ c (Proc.devRef .tc main_v28) = (normOf (F := Ideal) (srcOf (m ((c : Thread nD τ).loc main_arg1))) (dstOf (m ((c : Thread nD τ).loc main_arg1)))) := (W4_of_ne m ρ c main_v28 (by decide)).trans (w3_nrm m ρ c)
theorem w4_arg2 : W4 m ρ c (Proc.devRef .tc main_arg2) = (m ((c : Thread nD τ).loc main_arg2)) := (W4_of_ne m ρ c main_arg2 (by decide)).trans (w3_arg2 m ρ c)
theorem w4_arg6 : W4 m ρ c (Proc.devRef .tc main_arg6) = (m ((c : Thread nD τ).loc main_arg6)) := (W4_of_ne m ρ c main_arg6 (by decide)).trans (w3_arg6 m ρ c)
theorem w4_arg8 : W4 m ρ c (Proc.devRef .tc main_arg8) = (m ((c : Thread nD τ).loc main_arg8)) := (W4_of_ne m ρ c main_arg8 (by decide)).trans (w3_arg8 m ρ c)

/-- Region 1's output array: the product of the hidden layer with the two output weight matrices side by side. -/
theorem w4_cp : W4 m ρ c (Proc.devRef .tc main_v49) = rowsTimes (kHid (m ((c : Thread nD τ).loc main_arg0)) (m ((c : Thread nD τ).loc main_arg1)) (m ((c : Thread nD τ).loc main_arg3)) (m ((c : Thread nD τ).loc main_arg4))) (truncf .bf16 (wcat (F := Ideal) (m ((c : Thread nD τ).loc main_arg5)) (m ((c : Thread nD τ).loc main_arg7))) bitsLt_bf16_f32) := by
  refine (W4_arr m ρ c 2).trans ((KReg1.final (V3 m ρ) c).trans ?_)
  show rowsTimes (W3 m ρ c (Proc.devRef .tc main_v48)) (W3 m ρ c (Proc.devRef .tc main_v31)) = _
  rw [w3_hid m ρ c, w3_wcat m ρ c]

/-! ## After stretch 2 -/

theorem w5_mu : W5 m ρ c (Proc.devRef .tc main_v66) = kMu (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (h2_mu (W4 m ρ c)).trans ?_
  rw [w4_dst m ρ c, w4_src m ρ c, w4_nrm m ρ c, w4_cp m ρ c, w4_arg6 m ρ c]
  rfl
theorem w5_ls : W5 m ρ c (Proc.devRef .tc main_v70) = kLs (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) := by
  refine (h2_ls (W4 m ρ c)).trans ?_
  rw [w4_dst m ρ c, w4_src m ρ c, w4_nrm m ρ c, w4_cp m ρ c, w4_arg8 m ρ c]
  rfl
theorem w5_arg2 : W5 m ρ c (Proc.devRef .tc main_arg2) = (m ((c : Thread nD τ).loc main_arg2)) := (h2_arg2 (W4 m ρ c)).trans (w4_arg2 m ρ c)

/-! ## After region 2 -/

/-- The result buffer at the end of the fold is `kOut` of the nine argument arrays as launched. -/
theorem w6_out : W6 m ρ c (Proc.devRef .tc main_v71) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 3).trans ((KReg2.final (V5 m ρ) c).trans ?_)
  show reparam (W5 m ρ c (Proc.devRef .tc main_v66)) (W5 m ρ c (Proc.devRef .tc main_v70)) (W5 m ρ c (Proc.devRef .tc main_arg2)) = _
  rw [w5_mu m ρ c, w5_ls m ρ c, w5_arg2 m ρ c]
  rfl

end Cert.KernelIdeal.KFold

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.LibRowGatherScatter.lean ====
/-
  ROW GATHER AND ROW SCATTER READ AT AN INDEX. A general lemma file: it names no program.

  What `x[idx]` of the ROWS of a matrix `x : [N, C]` at a column of integer indices `idx : [R, 1]` lowers to is a
  `stablehlo.gather` with offset_dims `[1]`, collapsed_slice_dims `[0]`, start_index_map `[0]`, index_vector_dim 1 and
  slice_sizes `[1, C]`; result element `(e, j)` is `x` at `(r, j)`, where `r` is the start index `idx[e, 0]` read as a
  signed integer and clamped into `[0, N − 1]` (`rowOf`, `rowGather_apply`). The same with a vector `x : [N]` in place
  of the matrix (`vecGather_apply`). The matching row scatter (update_window_dims `[1]`, inserted_window_dims `[0]`,
  scatter_dims_to_operand_dims `[0]`, index_vector_dim 1) sends update element `(e, j)` to `(idx[e, 0], j)`, the index
  read signed and NOT clamped, and drops it when that is outside the operand: so an update that lands at `(r, k)` has
  `idx[e, 0] = r` and `j = k` (`rowScatter_lands`), and, the landing row being inside `[0, N)`, the gather's clamp of
  that same index does nothing: the row the gather reads for entry `e` is the row the scatter writes (`rowOf_of_lands`).
-/
import Idealize.ShloMosaic.PureOps.Ideal
import Idealize.ShloMosaic.Lib.ValueIdx

noncomputable section

namespace Idealize.ShloMosaic.RowOps

open Idealize.ShloMosaic Idealize.ShloMosaic.ValueIdx

/-! ## Gathering rows of a matrix -/

/-- The dimension numbers of a gather of ROWS: operand `[N, C]`, start indices `[R, 1]` (one row number per entry),
    result `[R, C]`; axis 0 of the operand is collapsed and indexed, axis 1 is copied whole. Their conditions `wf` are
    decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row an entry of the start indices names: read signed, clamped into `[0, N − 1]`. -/
def rowOf {R w : Nat} (N : Nat) (hN : 0 < N) (idx : IVec ⟨2, ![R, 1]⟩ w) (e : Fin R) : Fin N :=
  ⟨min (idx (ix2 e 0)).toInt.toNat (N - 1), by omega⟩

/-- THE ROW GATHER READ AT `(e, j)`: the operand at row `rowOf idx e`, column `j`. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowGatherDims N R C wf) x idx (ix2 e j) = x (ix2 (rowOf N hN idx e) j) := by
  unfold Host.gather
  congr 1
  funext a
  refine Fin.ext ?_
  show (rowGatherDims N R C wf).start (ix2 e j) idx a + (rowGatherDims N R C wf).batchCoord (ix2 e j) a
    + (rowGatherDims N R C wf).offCoord (ix2 e j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N R C wf).startIndexMap from List.mem_singleton.mpr rfl)]
    have hsi : (rowGatherDims N R C wf).siIdx (ix2 e j)
        ⟨List.idxOf (⟨0, by decide⟩ : Fin 2) (rowGatherDims N R C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have h10 : (⟨1, by decide⟩ : Fin 2) ∉ ([0] : List (Fin 2)) := by decide
    have h1 : (⟨1, by decide⟩ : Fin 2) ∉ (rowGatherDims N R C wf).startIndexMap := h10
    have hk : (⟨1, by decide⟩ : Fin 2) ∈ (rowGatherDims N R C wf).sKept :=
      (GatherDims.mem_sKept _ _).mpr ⟨h10, List.not_mem_nil⟩
    unfold GatherDims.start GatherDims.offCoord
    rw [dif_neg h1, dif_pos hk]
    simp only [Nat.zero_add, Nat.add_zero]
    rfl

/-! ## Gathering entries of a vector at the same column of indices -/

/-- The dimension numbers of the same gather over a VECTOR operand `[N]`: start indices `[R, 1]`, result `[R]`; the
    operand's one axis is collapsed and indexed. Their conditions `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `rowOf idx e`, the same clamped signed reading of `idx[e, 0]`. -/
theorem vecGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (rowOf N hN idx e)) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows into a matrix -/

/-- The dimension numbers of the matching scatter of ROWS: operand `[N, C]`, scatter indices `[R, 1]`, updates
    `[R, C]`; update row `e` goes to operand row `idx[e, 0]`, column by column. Their conditions `wf` are decided on
    a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- WHERE A ROW SCATTER LANDS: an update element `(e, j)` that lands at `(r, k)` has its scatter index `idx[e, 0]`, read
    signed, equal to `r`, and `j = k`. -/
theorem rowScatter_lands {N R C w : Nat}
    (wf : ScatterDims.WF ⟨2, ![N, C]⟩ ⟨2, ![R, 1]⟩ ⟨2, ![R, C]⟩ [1] [0] [0] 1)
    (idx : IVec ⟨2, ![R, 1]⟩ w) (u : (⟨2, ![R, C]⟩ : Shape).Idx) (i : (⟨2, ![N, C]⟩ : Shape).Idx)
    (h : (rowScatterDims N R C wf).resultIdx? u idx = some i) :
    (idx (ix2 ⟨(u 0).val, idx2_lt0 u⟩ 0)).toInt = ((i 0).val : Int) ∧ (u 1).val = (i 1).val := by
  have h10 : (1 : Fin 2) ∉ ([0] : List (Fin 2)) := by decide
  have h00 : (0 : Fin 2) ∈ ([0] : List (Fin 2)) := List.mem_singleton.mpr rfl
  -- the scatter-indices entry update element `u` reads: row `u 0`, the one component
  have hsi : (rowScatterDims N R C wf).siIdx u
      ⟨List.idxOf (0 : Fin 2) (rowScatterDims N R C wf).scatterDimsToOperandDims,
        List.idxOf_lt_length_iff.2 h00⟩ = ix2 ⟨(u 0).val, idx2_lt0 u⟩ 0 := by
    funext b; refine Fin.ext ?_
    match b with
    | ⟨0, _⟩ => rfl
    | ⟨1, _⟩ => rfl
  -- axis 0: the start is the index read signed, the window coordinate is 0 (the axis is inserted)
  have hs0 : (rowScatterDims N R C wf).start u idx (0 : Fin 2) = (idx (ix2 ⟨(u 0).val, idx2_lt0 u⟩ 0)).toInt := by
    unfold ScatterDims.start
    rw [dif_pos (show (0 : Fin 2) ∈ (rowScatterDims N R C wf).scatterDimsToOperandDims from h00), hsi]
  have hw0 : (rowScatterDims N R C wf).window u (0 : Fin 2) = 0 := by
    unfold ScatterDims.window
    rw [dif_neg]
    intro hk
    have : (0 : Fin 2) ∉ ([0] : List (Fin 2)) := by
      simpa [ScatterDims.sKept, Shape.kept, List.mem_filter] using hk
    exact this h00
  -- axis 1: the start is 0 (the map does not name it), the window coordinate is the update's column
  have hs1 : (rowScatterDims N R C wf).start u idx (1 : Fin 2) = 0 := by
    unfold ScatterDims.start
    rw [dif_neg (show (1 : Fin 2) ∉ (rowScatterDims N R C wf).scatterDimsToOperandDims from h10)]
  have hw1 : (rowScatterDims N R C wf).window u (1 : Fin 2) = (u 1).val := by
    unfold ScatterDims.window
    rw [dif_pos (show (1 : Fin 2) ∈ (rowScatterDims N R C wf).sKept by
      simp [ScatterDims.sKept, Shape.kept, List.mem_filter])]
    rfl
  unfold ScatterDims.resultIdx? at h
  split at h
  · rename_i hc
    have hi := Option.some.inj h
    subst hi
    have c0 := (hc (0 : Fin 2)).1
    rw [hs0, hw0] at c0
    refine ⟨?_, ?_⟩
    · show _ = (((((rowScatterDims N R C wf).start u idx (0 : Fin 2)
        + ((rowScatterDims N R C wf).window u (0 : Fin 2) : Nat) : Int)).toNat : Nat) : Int)
      rw [hs0, hw0]
      omega
    · show _ = ((rowScatterDims N R C wf).start u idx (1 : Fin 2)
        + ((rowScatterDims N R C wf).window u (1 : Fin 2) : Nat) : Int).toNat
      rw [hs1, hw1]
      omega
  · exact absurd h (by simp)

/-- THE GATHER'S ROW IS THE SCATTER'S ROW: when update element `u` lands at `i` under the scatter indices `idx`, and
    `idx'` agrees with `idx` at `u`'s entry whenever that entry is not negative (as an index array wrapped pointwise for
    negative entries does), the row the gather reads for that entry off `idx'` is the landing row `i 0`: the landing
    row is inside `[0, N)`, so the clamp does nothing. -/
theorem rowOf_of_lands {N R C w : Nat} (hN : 0 < N)
    (wf : ScatterDims.WF ⟨2, ![N, C]⟩ ⟨2, ![R, 1]⟩ ⟨2, ![R, C]⟩ [1] [0] [0] 1)
    (idx idx' : IVec ⟨2, ![R, 1]⟩ w) (u : (⟨2, ![R, C]⟩ : Shape).Idx) (i : (⟨2, ![N, C]⟩ : Shape).Idx)
    (h : (rowScatterDims N R C wf).resultIdx? u idx = some i)
    (hsame : 0 ≤ (idx (ix2 ⟨(u 0).val, idx2_lt0 u⟩ 0)).toInt →
      idx' (ix2 ⟨(u 0).val, idx2_lt0 u⟩ 0) = idx (ix2 ⟨(u 0).val, idx2_lt0 u⟩ 0)) :
    (rowOf N hN idx' ⟨(u 0).val, idx2_lt0 u⟩).val = (i 0).val := by
  obtain ⟨h0, _⟩ := rowScatter_lands wf idx u i h
  have hs := hsame (by rw [h0]; exact Int.natCast_nonneg _)
  have hlt := idx2_lt0 i
  show min (idx' (ix2 ⟨(u 0).val, idx2_lt0 u⟩ 0)).toInt.toNat (N - 1) = (i 0).val
  rw [hs, h0]
  omega

end Idealize.ShloMosaic.RowOps

end
-- ==== Proof.LibScatterAddAt.lean ====
/-
  A general lemma file (it names no kernel). The exact scatter-add read at an element: the operand's entry plus the sum of the updates over the LANDING SET of
  that element (the updates whose result index is the element), the landing set kept as a named finite set with its
  membership rule, so that two scatter-adds with the same dimension numbers and index array are compared as sums over
  one and the same set. And the congruence of the scatter-add in its four arguments.
-/
import Idealize.ShloMosaic.PureOps.Ideal

noncomputable section

open scoped BigOperators

namespace Idealize.ShloMosaic.ScatterAddAt

open Idealize.ShloMosaic

theorem hostScatterAdd_congr {s si su : Shape} {w : Nat} {d d' : ScatterDims s si su} {x x' : s.Idx → EReal}
    {idx idx' : IVec si w} {u u' : su.Idx → EReal} (hd : d = d') (hx : x = x') (hi : idx = idx') (hu : u = u') :
    Ideal.hostScatterAdd d x idx u = Ideal.hostScatterAdd d' x' idx' u' := by
  subst hd hx hi hu
  rfl

open Classical in
/-- The updates that land on element i. -/
def landing {s si su : Shape} {w : Nat} (d : ScatterDims s si su) (idx : IVec si w) (i : s.Idx) : Finset su.Idx :=
  Finset.univ.filter (fun j => d.resultIdx? j idx = some i)

theorem mem_landing {s si su : Shape} {w : Nat} (d : ScatterDims s si su) (idx : IVec si w) (i : s.Idx) (j : su.Idx) :
    j ∈ landing d idx i ↔ d.resultIdx? j idx = some i := by
  unfold landing
  simp only [Finset.mem_filter, Finset.mem_univ, true_and]

/-- The exact scatter-add at element i: the operand there plus the updates landing there. -/
theorem hostScatterAdd_apply {s si su : Shape} {w : Nat} (d : ScatterDims s si su) (x : s.Idx → EReal) (idx : IVec si w)
    (u : su.Idx → EReal) (i : s.Idx) :
    Ideal.hostScatterAdd d x idx u i = x i + ∑ j ∈ landing d idx i, u j := by
  unfold Ideal.hostScatterAdd landing
  refine congrArg (x i + ·) (Finset.sum_congr ?_ fun _ _ => rfl)
  ext j
  simp only [Finset.mem_filter, Finset.mem_univ, true_and]

/-- The same for the host operation at the ideal instance. -/
theorem host_scatterAdd_apply {s si su : Shape} {w : Nat} {φ : FTy} (d : ScatterDims s si su) (x : FVec Ideal s φ) (idx : IVec si w)
    (u : FVec Ideal su φ) (i : s.Idx) :
    Host.scatterAdd (F := Ideal) d x idx u i = x i + ∑ j ∈ landing d idx i, u j :=
  hostScatterAdd_apply d x idx u i

attribute [irreducible] landing

end Idealize.ShloMosaic.ScatterAddAt

end
-- ==== Proof.LibRowScatterCols.lean ====
/-
  A general lemma file (it names no kernel): where a row scatter lands, as an equivalence, and the transport of a row
  scatter-add between two column widths.

  The row scatter (update row e goes to operand row idx[e, 0], column by column) sends update element (e, c) to
  (r, k) exactly when idx[e, 0], read signed, is r and c = k.  So the updates that land on (r, c) are indexed by the
  entries e with idx[e, 0] = r alone, whatever the number of columns: if two update arrays of different widths agree
  on column c of the one and column c' of the other, and so do the operands at (r, c) and (r, c'), the two
  scatter-adds agree at (r, c) and (r, c').  The same for the edge aggregation (rows gathered, then row
  scatter-added), with the dimension records given by name.
-/
import proofs.«108981_j56401510531402_1_alg».proof.Proof.LibRowGatherScatter
import proofs.«108981_j56401510531402_1_alg».proof.Proof.LibScatterAddAt

noncomputable section

open scoped BigOperators

namespace Idealize.ShloMosaic.RowOps

open Idealize.ShloMosaic Idealize.ShloMosaic.ValueIdx Idealize.ShloMosaic.ScatterAddAt

/-- WHERE A ROW SCATTER LANDS, both ways: update element (e, c) lands at (r, k) iff idx[e, 0] read signed is r and c = k. -/
theorem rowScatter_lands_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (r : Fin N) (k : Fin C) :
    (rowScatterDims N R C wf).resultIdx? (ix2 e c) idx = some (ix2 r k)
      ↔ (idx (ix2 e 0)).toInt = (r.val : Int) ∧ c = k := by
  constructor
  · intro h
    obtain ⟨h0, h1⟩ := rowScatter_lands wf idx (ix2 e c) (ix2 r k) h
    exact ⟨h0, Fin.ext h1⟩
  · rintro ⟨h0, rfl⟩
    have h10 : (1 : Fin 2) ∉ ([0] : List (Fin 2)) := by decide
    have h00 : (0 : Fin 2) ∈ ([0] : List (Fin 2)) := List.mem_singleton.mpr rfl
    have hsi : (rowScatterDims N R C wf).siIdx (ix2 e c)
        ⟨List.idxOf (0 : Fin 2) (rowScatterDims N R C wf).scatterDimsToOperandDims,
          List.idxOf_lt_length_iff.2 h00⟩ = ix2 e 0 := by
      funext b; refine Fin.ext ?_
      match b with
      | ⟨0, _⟩ => rfl
      | ⟨1, _⟩ => rfl
    have hs0 : (rowScatterDims N R C wf).start (ix2 e c) idx (0 : Fin 2) = (idx (ix2 e 0)).toInt := by
      unfold ScatterDims.start
      rw [dif_pos (show (0 : Fin 2) ∈ (rowScatterDims N R C wf).scatterDimsToOperandDims from h00), hsi]
    have hw0 : (rowScatterDims N R C wf).window (ix2 e c) (0 : Fin 2) = 0 := by
      unfold ScatterDims.window
      rw [dif_neg]
      intro hk
      have : (0 : Fin 2) ∉ ([0] : List (Fin 2)) := by
        simpa [ScatterDims.sKept, Shape.kept, List.mem_filter] using hk
      exact this h00
    have hs1 : (rowScatterDims N R C wf).start (ix2 e c) idx (1 : Fin 2) = 0 := by
      unfold ScatterDims.start
      rw [dif_neg (show (1 : Fin 2) ∉ (rowScatterDims N R C wf).scatterDimsToOperandDims from h10)]
    have hw1 : (rowScatterDims N R C wf).window (ix2 e c) (1 : Fin 2) = c.val := by
      unfold ScatterDims.window
      rw [dif_pos (show (1 : Fin 2) ∈ (rowScatterDims N R C wf).sKept by
        simp [ScatterDims.sKept, Shape.kept, List.mem_filter])]
      rfl
    have hcond : ∀ a : Fin 2, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat) := by
      intro a
      match a with
      | ⟨0, _⟩ =>
        show 0 ≤ (rowScatterDims N R C wf).start (ix2 e c) idx (0 : Fin 2) + ((rowScatterDims N R C wf).window (ix2 e c) (0 : Fin 2) : Nat)
          ∧ (rowScatterDims N R C wf).start (ix2 e c) idx (0 : Fin 2) + ((rowScatterDims N R C wf).window (ix2 e c) (0 : Fin 2) : Nat) < (N : Nat)
        rw [hs0, hw0, h0]
        have := r.isLt
        omega
      | ⟨1, _⟩ =>
        show 0 ≤ (rowScatterDims N R C wf).start (ix2 e c) idx (1 : Fin 2) + ((rowScatterDims N R C wf).window (ix2 e c) (1 : Fin 2) : Nat)
          ∧ (rowScatterDims N R C wf).start (ix2 e c) idx (1 : Fin 2) + ((rowScatterDims N R C wf).window (ix2 e c) (1 : Fin 2) : Nat) < (C : Nat)
        rw [hs1, hw1]
        have := c.isLt
        omega
    unfold ScatterDims.resultIdx?
    rw [dif_pos hcond]
    refine congrArg some (funext fun a => Fin.ext ?_)
    match a with
    | ⟨0, _⟩ =>
      show ((rowScatterDims N R C wf).start (ix2 e c) idx (0 : Fin 2) + ((rowScatterDims N R C wf).window (ix2 e c) (0 : Fin 2) : Nat) : Int).toNat = r.val
      rw [hs0, hw0, h0]
      omega
    | ⟨1, _⟩ =>
      show ((rowScatterDims N R C wf).start (ix2 e c) idx (1 : Fin 2) + ((rowScatterDims N R C wf).window (ix2 e c) (1 : Fin 2) : Nat) : Int).toNat = c.val
      rw [hs1, hw1]
      omega

/-- A ROW SCATTER-ADD TRANSPORTED BETWEEN COLUMN WIDTHS: the same scatter indices, two update arrays that agree on
    column c of the one and column c' of the other, operands that agree at (r, c) and (r, c'): the two exact
    scatter-adds agree there.  The updates landing on (r, c) and on (r, c') are matched entry by entry. -/
theorem rowScatterAdd_col {N R C C' w : Nat}
    (wf : ScatterDims.WF ⟨2, ![N, C]⟩ ⟨2, ![R, 1]⟩ ⟨2, ![R, C]⟩ [1] [0] [0] 1)
    (wf' : ScatterDims.WF ⟨2, ![N, C']⟩ ⟨2, ![R, 1]⟩ ⟨2, ![R, C']⟩ [1] [0] [0] 1)
    (x : (⟨2, ![N, C]⟩ : Shape).Idx → EReal) (x' : (⟨2, ![N, C']⟩ : Shape).Idx → EReal)
    (idx : IVec ⟨2, ![R, 1]⟩ w)
    (U : (⟨2, ![R, C]⟩ : Shape).Idx → EReal) (U' : (⟨2, ![R, C']⟩ : Shape).Idx → EReal)
    (r : Fin N) (c : Fin C) (c' : Fin C')
    (hx : x (ix2 r c) = x' (ix2 r c')) (hU : ∀ e : Fin R, U (ix2 e c) = U' (ix2 e c')) :
    Ideal.hostScatterAdd (rowScatterDims N R C wf) x idx U (ix2 r c)
      = Ideal.hostScatterAdd (rowScatterDims N R C' wf') x' idx U' (ix2 r c') := by
  rw [hostScatterAdd_apply, hostScatterAdd_apply, hx]
  refine congrArg (x' (ix2 r c') + ·) ?_
  refine Finset.sum_nbij' (fun u => ix2 (u 0) c') (fun u' => ix2 (u' 0) c) ?_ ?_ ?_ ?_ ?_
  · intro u hu
    rw [mem_landing] at hu ⊢
    rw [eq_ix2 u] at hu
    have h := (rowScatter_lands_iff wf idx (u 0) (u 1) r c).mp hu
    exact (rowScatter_lands_iff wf' idx (u 0) c' r c').mpr ⟨h.1, rfl⟩
  · intro u hu
    rw [mem_landing] at hu ⊢
    rw [eq_ix2 u] at hu
    have h := (rowScatter_lands_iff wf' idx (u 0) (u 1) r c').mp hu
    exact (rowScatter_lands_iff wf idx (u 0) c r c).mpr ⟨h.1, rfl⟩
  · intro u hu
    rw [mem_landing] at hu
    rw [eq_ix2 u] at hu
    have h := (rowScatter_lands_iff wf idx (u 0) (u 1) r c).mp hu
    show ix2 (u 0) c = u
    rw [← h.2]
    exact (eq_ix2 u).symm
  · intro u hu
    rw [mem_landing] at hu
    rw [eq_ix2 u] at hu
    have h := (rowScatter_lands_iff wf' idx (u 0) (u 1) r c').mp hu
    show ix2 (u 0) c' = u
    rw [← h.2]
    exact (eq_ix2 u).symm
  · intro u hu
    rw [mem_landing] at hu
    rw [eq_ix2 u] at hu
    have h := (rowScatter_lands_iff wf idx (u 0) (u 1) r c).mp hu
    show U u = U' (ix2 (u 0) c')
    rw [← hU (u 0)]
    exact congrArg U ((eq_ix2 u).trans (congrArg (fun k => ix2 (u 0) k) h.2))

/-- THE EDGE AGGREGATION TRANSPORTED BETWEEN COLUMN WIDTHS, for dimension records given by name: a row scatter-add of
    gathered rows, at two column widths.  The records are row scatters and row gathers (hd, hd', hg, hg'), the scatter
    indices and the gather indices agree (hidx, hsrc), the operands agree at the two entries (hx), and the gathered
    arrays agree on column c of the one and column c' of the other (hXY): then the two aggregates agree at (r, c) and
    (r, c').  Every datum is a variable here, so applying it matches names only. -/
theorem rowAggregate_col {N R C C' w : Nat}
    {d : ScatterDims ⟨2, ![N, C]⟩ ⟨2, ![R, 1]⟩ ⟨2, ![R, C]⟩} {d' : ScatterDims ⟨2, ![N, C']⟩ ⟨2, ![R, 1]⟩ ⟨2, ![R, C']⟩}
    {g : GatherDims ⟨2, ![N, C]⟩ ⟨2, ![R, 1]⟩ ⟨2, ![R, C]⟩} {g' : GatherDims ⟨2, ![N, C']⟩ ⟨2, ![R, 1]⟩ ⟨2, ![R, C']⟩}
    {wf : ScatterDims.WF ⟨2, ![N, C]⟩ ⟨2, ![R, 1]⟩ ⟨2, ![R, C]⟩ [1] [0] [0] 1}
    {wf' : ScatterDims.WF ⟨2, ![N, C']⟩ ⟨2, ![R, 1]⟩ ⟨2, ![R, C']⟩ [1] [0] [0] 1}
    {gwf : GatherDims.WF ⟨2, ![N, C]⟩ ⟨2, ![R, 1]⟩ ⟨2, ![R, C]⟩ [1] [0] [] [0] [] 1 ![1, C]}
    {gwf' : GatherDims.WF ⟨2, ![N, C']⟩ ⟨2, ![R, 1]⟩ ⟨2, ![R, C']⟩ [1] [0] [] [0] [] 1 ![1, C']}
    {x : (⟨2, ![N, C]⟩ : Shape).Idx → EReal} {x' : (⟨2, ![N, C']⟩ : Shape).Idx → EReal}
    {idx idx' src src' : IVec ⟨2, ![R, 1]⟩ w}
    {X : (⟨2, ![N, C]⟩ : Shape).Idx → EReal} {Y : (⟨2, ![N, C']⟩ : Shape).Idx → EReal}
    {r : Fin N} {c : Fin C} {c' : Fin C'}
    (hd : d = rowScatterDims N R C wf) (hd' : d' = rowScatterDims N R C' wf')
    (hg : g = rowGatherDims N R C gwf) (hg' : g' = rowGatherDims N R C' gwf')
    (hN : 0 < N) (hidx : idx' = idx) (hsrc : src' = src)
    (hx : x (ix2 r c) = x' (ix2 r c')) (hXY : ∀ n : Fin N, X (ix2 n c) = Y (ix2 n c')) :
    Ideal.hostScatterAdd d x idx (Host.gather g X src) (ix2 r c)
      = Ideal.hostScatterAdd d' x' idx' (Host.gather g' Y src') (ix2 r c') := by
  subst hd hd' hg hg' hidx hsrc
  refine rowScatterAdd_col wf wf' x x' idx' _ _ r c c' hx fun e => ?_
  rw [rowGather_apply hN, rowGather_apply hN]
  exact hXY _

end Idealize.ShloMosaic.RowOps

end
-- ==== Proof.Bridge.lean ====
/-
  The mathematics of the equivalence, at the ideal values.

  Both programs compute a two-layer graph convolution followed by  mu + x · exp(ls).  One layer is: a dense product,
  then the aggregation over the edges (rows gathered at the sources, scaled by the edge weight  d[src] · d[dst],  added
  into the destination rows), then a bias.  The two programs share the first layer and differ in the second: the
  reference runs it twice, once with each 128 × 64 output weight matrix; the kernel runs it once with the two matrices
  side by side (128 × 128) and cuts the aggregate into its left and right 64 columns.

  Column j of a product  H · [A | B]  is column j of  H · A  for j < 64 and column j − 64 of  H · B  otherwise, sum by
  sum with the same terms.  And the aggregation acts on each column by itself: the updates that land on entry (r, j)
  are those of the edges whose destination word is r, whatever the number of columns, and an update's entry is the
  gathered entry of its own column times the edge weight.  So the left and right halves of the kernel's aggregate are the
  reference's two aggregates, term by term; no algebraic law is used and no finiteness.
-/
import proofs.«108981_j56401510531402_1_alg».proof.Proof.KHost
import proofs.«108981_j56401510531402_1_alg».proof.Proof.KMat
import proofs.«108981_j56401510531402_1_alg».proof.Proof.KSpec
import proofs.«108981_j56401510531402_1_alg».proof.Proof.Gen.ReferenceIdeal.Read
import proofs.«108981_j56401510531402_1_alg».proof.Proof.LibHostDot
import proofs.«108981_j56401510531402_1_alg».proof.Proof.LibRowScatterCols
import Idealize.ShloMosaic.Lib.Pipeline.Value
import Idealize.ShloMosaic.Lib.ValueIdx

set_option maxRecDepth 16384

noncomputable section

namespace Cert.Bridge

open Idealize.ShloMosaic Idealize.ShloMosaic.ValueIdx
open Cert.KernelIdeal.KHost Cert.KernelIdeal.KMat
open scoped BigOperators

/-! ## Products -/

/-- The host's 100000 × 128 by 128 × 128 product is the plain product, entry by entry. -/
theorem dot128_eq (x : FVec Ideal Cert.KernelIdeal.S100000x128 .f32) (w : FVec Ideal Cert.KernelIdeal.S128x128 .f32) :
    Host.dotGeneral Cert.ReferenceIdeal.dot_S100000x128_S128x128_S100000x128_1_0_0_1_n_n none x w
      = rowsTimes x (truncf .bf16 w Cert.KernelIdeal.Gen.bitsLt_bf16_f32) := by
  funext i
  obtain ⟨r, q, rfl⟩ : ∃ (r : Fin 100000) (q : Fin 128), i = ix2 r q := ⟨i 0, i 1, eq_ix2 i⟩
  exact HostDot.dotGeneral_apply _ rfl rfl rfl rfl rfl rfl none x w r q

/-- Entry (k, j) of the two matrices side by side, on the left half. -/
theorem wcat_left (a b : FVec Ideal Cert.KernelIdeal.S128x64 .f32) (k : Fin 128) (j : Fin 64) :
    wcat a b (ix2 k ⟨j.val, by omega⟩) = a (ix2 k j) := by
  unfold wcat
  refine concatenate_pair_apply_left (t := Cert.KernelIdeal.S128x128) 1 a b
    Cert.KernelIdeal.Gen.concatenates_S128x64_S128x64_S128x128_d1 _ rfl (ix2 k j) ?_
  intro d
  match d with
  | ⟨0, _⟩ => rfl
  | ⟨1, _⟩ => rfl

/-- … and on the right half. -/
theorem wcat_right (a b : FVec Ideal Cert.KernelIdeal.S128x64 .f32) (k : Fin 128) (j : Fin 64) :
    wcat a b (ix2 k ⟨64 + j.val, by omega⟩) = b (ix2 k j) := by
  unfold wcat
  refine concatenate_pair_apply_right (t := Cert.KernelIdeal.S128x128) 1 a b
    Cert.KernelIdeal.Gen.concatenates_S128x64_S128x64_S128x128_d1 _ rfl rfl (ix2 k j) ?_ ?_
  · intro d hd
    match d with
    | ⟨0, _⟩ => rfl
    | ⟨1, _⟩ => exact absurd rfl hd
  · show j.val + 64 = 64 + j.val
    omega

/-- Column j of  H · [A | B]  is column j of the host's  H · A. -/
theorem cols_left (H : FVec Ideal Cert.KernelIdeal.S100000x128 .f32) (a b : FVec Ideal Cert.KernelIdeal.S128x64 .f32)
    (r : Fin 100000) (j : Fin 64) :
    rowsTimes H (truncf .bf16 (wcat a b) Cert.KernelIdeal.Gen.bitsLt_bf16_f32) (ix2 r ⟨0 + j.val, by omega⟩)
      = Host.dotGeneral Cert.ReferenceIdeal.dot_S100000x128_S128x64_S100000x64_1_0_0_1_n_n none H a (ix2 r j) := by
  rw [HostDot.dotGeneral_apply _ rfl rfl rfl rfl rfl rfl none H a r j]
  unfold rowsTimes
  refine Finset.sum_congr rfl fun k _ => ?_
  refine congrArg (H (ix2 r k) * ·) ?_
  show wcat a b (ix2 k ⟨0 + j.val, _⟩) = a (ix2 k j)
  rw [← wcat_left a b k j]
  refine congrArg (wcat a b) (congrArg (ix2 k) (Fin.ext ?_))
  show 0 + j.val = j.val
  omega

/-- Column 64 + j of  H · [A | B]  is column j of the host's  H · B. -/
theorem cols_right (H : FVec Ideal Cert.KernelIdeal.S100000x128 .f32) (a b : FVec Ideal Cert.KernelIdeal.S128x64 .f32)
    (r : Fin 100000) (j : Fin 64) :
    rowsTimes H (truncf .bf16 (wcat a b) Cert.KernelIdeal.Gen.bitsLt_bf16_f32) (ix2 r ⟨64 + j.val, by omega⟩)
      = Host.dotGeneral Cert.ReferenceIdeal.dot_S100000x128_S128x64_S100000x64_1_0_0_1_n_n none H b (ix2 r j) := by
  rw [HostDot.dotGeneral_apply _ rfl rfl rfl rfl rfl rfl none H b r j]
  unfold rowsTimes
  refine Finset.sum_congr rfl fun k _ => ?_
  exact congrArg (H (ix2 r k) * ·) (wcat_right a b k j)

/-! ## The aggregation, column by column -/

open Idealize.ShloMosaic.RowOps

/-- The host's exact scatter-add at the ideal values is the ideal instance's, as functions. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- The edge weights repeated along C columns, read at (e, c): the weight of edge e. -/
theorem weights_apply (C : Nat) (h1 : Cert.KernelIdeal.S1700000.BroadcastsInDim Cert.KernelIdeal.S1700000x1 ![0])
    (h2 : Cert.KernelIdeal.S1700000x1.BroadcastsInDim ⟨2, ![1700000, C]⟩ ![0, 1])
    (n : FVec Ideal Cert.KernelIdeal.S1700000 .f32) (e : Fin 1700000) (c : Fin C) :
    broadcastInDim ⟨2, ![1700000, C]⟩ ![0, 1] h2 (broadcastInDim Cert.KernelIdeal.S1700000x1 ![0] h1 n) (ix2 e c) = n (ix1 e) := by
  rw [broadcastInDim_apply _ h2 _ (ix2 e c) (ix2 e 0) (by
    intro a
    match a with
    | ⟨0, _⟩ => rfl
    | ⟨1, _⟩ => rfl)]
  exact broadcastInDim_apply _ h1 n (ix2 e 0) (ix1 e) (by
    intro a
    match a with
    | ⟨0, _⟩ => rfl)

/-- The reference's 64-column aggregation, over the same edge data. -/
def ragg64 (dst src : IVec Cert.KernelIdeal.S1700000 32) (n : FVec Ideal Cert.KernelIdeal.S1700000 .f32)
    (T' : FVec Ideal Cert.ReferenceIdeal.S100000x64 .f32) : FVec Ideal Cert.ReferenceIdeal.S100000x64 .f32 :=
  Host.scatterAdd Cert.ReferenceIdeal.scatter_S100000x64_S1700000x1_S1700000x64_1_0_0_1
    (broadcastInDim Cert.ReferenceIdeal.S100000x64 ![] Cert.ReferenceIdeal.Gen.bcast_S_S100000x64 (constant (F := Ideal) Cert.ReferenceIdeal.S_ .f32 0x00000000#32))
    (col dst)
    (mulf (Host.gather Cert.ReferenceIdeal.gather_S100000x64_S1700000x1_S1700000x64_1_0_n_n_0_1_164 T' (wrapCol src))
      (broadcastInDim Cert.ReferenceIdeal.S1700000x64 ![0, 1] Cert.ReferenceIdeal.Gen.bcast_S1700000x1_S1700000x64_0_1
        (broadcastInDim Cert.ReferenceIdeal.S1700000x1 ![0] Cert.ReferenceIdeal.Gen.bcast_S1700000_S1700000x1_0 n)))

/-- THE COLUMNS OF AN AGGREGATE.  Columns o … o + 63 of the 128-column aggregate of T are the 64-column aggregate of
    T' whenever column o + j of T is column j of T': an update lands on (r, ·) exactly when its edge's destination word
    is r, whatever the width, and its entry is the gathered entry of its own column times its edge's weight. -/
theorem slice_agg (o : Nat) (ho : o + 64 ≤ 128) (hs : Cert.KernelIdeal.S100000x128.Slices ![0, o] Cert.KernelIdeal.S100000x64)
    (dst src : IVec Cert.KernelIdeal.S1700000 32) (n : FVec Ideal Cert.KernelIdeal.S1700000 .f32)
    (T : FVec Ideal Cert.KernelIdeal.S100000x128 .f32) (T' : FVec Ideal Cert.ReferenceIdeal.S100000x64 .f32)
    (hT : ∀ (r : Fin 100000) (j : Fin 64), T (ix2 r ⟨o + j.val, by omega⟩) = T' (ix2 r j)) :
    extractStridedSlice Cert.KernelIdeal.S100000x64 ![0, o] (agg (F := Ideal) dst src n T) hs = ragg64 dst src n T' := by
  funext i
  obtain ⟨r, j, rfl⟩ : ∃ (r : Fin 100000) (j : Fin 64), i = ix2 r j := ⟨i 0, i 1, eq_ix2 i⟩
  refine (extractStridedSlice_apply _ _ hs (ix2 r j) (ix2 r ⟨o + j.val, by omega⟩) ?_).trans ?_
  · intro a
    match a with
    | ⟨0, _⟩ => show r.val = 0 + r.val; omega
    | ⟨1, _⟩ => rfl
  unfold agg ragg64
  rw [scatterAdd_ideal, scatterAdd_ideal]
  have hN : 0 < 100000 := by norm_num
  refine rowScatterAdd_col (N := 100000) (R := 1700000) (C := 128) (C' := 64)
    Cert.KernelIdeal.scatter_S100000x128_S1700000x1_S1700000x128_1_0_0_1.wf
    Cert.ReferenceIdeal.scatter_S100000x64_S1700000x1_S1700000x64_1_0_0_1.wf _ _ (col dst) _ _ r ⟨o + j.val, by omega⟩ j ?_ ?_
  · rfl
  · intro e
    rw [mulf_apply, mulf_apply]
    have g1 : Host.gather Cert.KernelIdeal.gather_S100000x128_S1700000x1_S1700000x128_1_0_n_n_0_1_1128 T (wrapCol src) (ix2 e ⟨o + j.val, by omega⟩)
        = T (ix2 (rowOf 100000 hN (wrapCol src) e) ⟨o + j.val, by omega⟩) :=
      rowGather_apply hN Cert.KernelIdeal.gather_S100000x128_S1700000x1_S1700000x128_1_0_n_n_0_1_1128.wf T (wrapCol src) e ⟨o + j.val, by omega⟩
    have g2 : Host.gather Cert.ReferenceIdeal.gather_S100000x64_S1700000x1_S1700000x64_1_0_n_n_0_1_164 T' (wrapCol src) (ix2 e j)
        = T' (ix2 (rowOf 100000 hN (wrapCol src) e) j) :=
      rowGather_apply hN Cert.ReferenceIdeal.gather_S100000x64_S1700000x1_S1700000x64_1_0_n_n_0_1_164.wf T' (wrapCol src) e j
    rw [g1, g2, hT]
    refine congrArg (T' (ix2 (rowOf 100000 hN (wrapCol src) e) j) * ·) ?_
    exact (weights_apply 128 _ _ n e ⟨o + j.val, by omega⟩).trans (weights_apply 64 _ _ n e j).symm

/-! ## The two programs' results are one function -/

open Cert.KernelIdeal.KSpec

section
variable (x0 : FVec Ideal Cert.KernelIdeal.S100000x128 .f32) (x1 : IVec Cert.KernelIdeal.S2x1600000 32)
  (x2 : FVec Ideal Cert.KernelIdeal.S100000x64 .f32) (x3 : FVec Ideal Cert.KernelIdeal.S128x128 .f32)
  (x4 : FVec Ideal Cert.KernelIdeal.S128 .f32) (x5 : FVec Ideal Cert.KernelIdeal.S128x64 .f32)
  (x6 : FVec Ideal Cert.KernelIdeal.S64 .f32) (x7 : FVec Ideal Cert.KernelIdeal.S128x64 .f32)
  (x8 : FVec Ideal Cert.KernelIdeal.S64 .f32)

/-- The kernel body's chain over whole arrays is the host's: the two exponentials are one function of the extended
    reals.  (Over arbitrary arrays, so that nothing is evaluated.) -/
theorem reparam_eq (mu ls x : FVec Ideal Cert.KernelIdeal.S100000x64 .f32) :
    reparam (F := Ideal) mu ls x = addf mu (mulf x (Host.exp ls)) := rfl

/-- The hidden layers agree: the same aggregation of the same product, the same bias. -/
theorem hid_eq : kHid x0 x1 x3 x4 = Cert.ReferenceIdeal.Read.val_main_v45 (F := Ideal) x0 x1 x3 x4 := by
  unfold kHid aggOf
  rw [← dot128_eq]
  rfl

/-- The kernel's left 64 columns plus the first output bias are the reference's first output layer. -/
theorem mu_eq : kMu x0 x1 x3 x4 x5 x6 x7 = Cert.ReferenceIdeal.Read.val_main_v62 (F := Ideal) x0 x1 x3 x4 x5 x6 := by
  unfold kMu kAgg2 aggOf
  rw [slice_agg 0 (by omega) _ _ _ _ _
    (Host.dotGeneral Cert.ReferenceIdeal.dot_S100000x128_S128x64_S100000x64_1_0_0_1_n_n none (kHid x0 x1 x3 x4) x5)
    (fun r j => cols_left (kHid x0 x1 x3 x4) x5 x7 r j)]
  rw [hid_eq]
  rfl

/-- The kernel's right 64 columns plus the second output bias are the reference's second output layer. -/
theorem ls_eq : kLs x0 x1 x3 x4 x5 x7 x8 = Cert.ReferenceIdeal.Read.val_main_v79 (F := Ideal) x0 x1 x3 x4 x7 x8 := by
  unfold kLs kAgg2 aggOf
  rw [slice_agg 64 (by omega) _ _ _ _ _
    (Host.dotGeneral Cert.ReferenceIdeal.dot_S100000x128_S128x64_S100000x64_1_0_0_1_n_n none (kHid x0 x1 x3 x4) x7)
    (fun r j => cols_right (kHid x0 x1 x3 x4) x5 x7 r j)]
  rw [hid_eq]
  rfl

/-- THE RESULTS AGREE:  mu + init · exp(ls)  on both sides, the exponential the same function of the extended reals
    in the kernel body and on the host. -/
theorem kOut_eq : kOut x0 x1 x2 x3 x4 x5 x6 x7 x8 = Cert.ReferenceIdeal.Read.val_main_v82 (F := Ideal) x0 x1 x2 x3 x4 x5 x6 x7 x8 := by
  unfold kOut
  rw [mu_eq, ls_eq, reparam_eq]
  unfold Cert.ReferenceIdeal.Read.val_main_v82 Cert.ReferenceIdeal.Read.val_main_v81 Cert.ReferenceIdeal.Read.val_main_v80
  rfl

end

end Cert.Bridge

end
-- ==== Proof.lean ====
/-
  A two-layer graph convolution followed by  mu + init · exp(ls):  the kernel program against its reference, equal at
  the ideal values.

  Both programs build the same edge data from the edge list (the self-loops appended, the degrees by scatter-add, the
  edge weights  d[src] · d[dst]  with  d = rsqrt(max(degree, 1))),  and both compute
  hidden = aggregate(x · W1) + b1.  The reference then computes  mu = aggregate(hidden · Wmu) + bmu  and
  ls = aggregate(hidden · Wls) + bls  separately; the kernel computes  A = aggregate(hidden · [Wmu | Wls])  once and
  takes  mu = A[:, :64] + bmu,  ls = A[:, 64:] + bls.  Column j of  hidden · [Wmu | Wls]  is column j of
  hidden · Wmu  (j < 64) or column j − 64 of  hidden · Wls,  the same sum of the same products; and the aggregation treats
  each column by itself, the updates landing on a row being those of the edges whose destination is that row.  So the two
  results are one function of the nine arguments, term by term: no algebraic law is needed, and the precondition is
  not used.

  The kernel's three dense stages run as grid regions over ten row blocks; a row of a product depends on that row of
  the left operand alone, and the last stage is pointwise, so each region leaves in its output array one function of
  its whole input arrays (Proof/KReg0, KReg1, KReg2).  The host operations between the regions are read back stretch by
  stretch (Proof/KHost), the contents of the buffers are followed from the launch memory to the result buffer
  (Proof/KRun, Proof/KFold), and Proof/Bridge identifies the function so obtained with the reference's.
  The three frames are the generated ones; the ideal pass rewrote nothing, so the idealization claim is trivial.
-/
import proofs.«108981_j56401510531402_1_alg».proof.Defs
import proofs.«108981_j56401510531402_1_alg».proof.Proof.Gen.Kernel
import proofs.«108981_j56401510531402_1_alg».proof.Proof.Gen.Kernel.Skeleton
import proofs.«108981_j56401510531402_1_alg».proof.Proof.Gen.Kernel.Launch
import proofs.«108981_j56401510531402_1_alg».proof.Proof.Gen.Kernel.Points
import proofs.«108981_j56401510531402_1_alg».proof.Proof.Gen.Kernel.Frame
import proofs.«108981_j56401510531402_1_alg».proof.Proof.Gen.KernelIdeal
import proofs.«108981_j56401510531402_1_alg».proof.Proof.Gen.KernelIdeal.Skeleton
import proofs.«108981_j56401510531402_1_alg».proof.Proof.Gen.KernelIdeal.Launch
import proofs.«108981_j56401510531402_1_alg».proof.Proof.Gen.KernelIdeal.Points
import proofs.«108981_j56401510531402_1_alg».proof.Proof.Gen.KernelIdeal.Frame
import proofs.«108981_j56401510531402_1_alg».proof.Proof.Gen.ReferenceIdeal
import proofs.«108981_j56401510531402_1_alg».proof.Proof.Gen.Pre_finite_inputs
import proofs.«108981_j56401510531402_1_alg».proof.Proof.Gen.ReferenceIdeal.Run
import proofs.«108981_j56401510531402_1_alg».proof.Proof.Gen.ReferenceIdeal.Read
import proofs.«108981_j56401510531402_1_alg».proof.Proof.KRun
import proofs.«108981_j56401510531402_1_alg».proof.Proof.KFold
import proofs.«108981_j56401510531402_1_alg».proof.Proof.Bridge
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values the kernel's result buffer ends at `kOut` of its arguments, the reference's at its last stage
    of arguments that agree with them, and the two are one function. -/
theorem algebraic : Cert.algebraic_KernelIdeal_ReferenceIdeal := by
  intro m ρ m' ρ' _ hagree
  refine ⟨fun c => Cert.KernelIdeal.KSpec.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KFold.w6_out m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v82_eq, e0, e1, e2, e3, e4, e5, e6, e7, e8]
    exact (Cert.Bridge.kOut_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
